-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x128x32 32) (main_arg2 : FVec F S4096x128 .f32) (main_arg3 : FVec F S4096x16 .f32) (main_arg4 : FVec F S16x4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x16 .f32 := Host.absf main_arg3
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_v13 main_v16
-- ==== Kernel.lean ====
abbrev S4x2048x4096 : Shape := ⟨3, ![4, 2048, 4096]⟩
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S8192x4096 : Shape := ⟨2, ![8192, 4096]⟩
abbrev S4096x4096 : Shape := ⟨2, ![4096, 4096]⟩
abbrev S256x4096 : Shape := ⟨2, ![256, 4096]⟩
abbrev S256x16 : Shape := ⟨2, ![256, 16]⟩
abbrev S2048x4096 : Shape := ⟨2, ![2048, 4096]⟩
abbrev S2048 : Shape := ⟨1, ![2048]⟩
abbrev S256x2048 : Shape := ⟨2, ![256, 2048]⟩
abbrev S1x2048 : Shape := ⟨2, ![1, 2048]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x128x32, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S4096, .f32⟩
  | .hbm, ⟨6, _⟩ => ⟨S8192x4096, .f32⟩
  | .hbm, ⟨7, _⟩ => ⟨S4096x4096, .i32⟩
  | .hbm, ⟨8, _⟩ => ⟨S4096x128x32, .f32⟩
  | .hbm, ⟨9, _⟩ => ⟨S4096x4096, .f32⟩
  | .hbm, ⟨10, _⟩ => ⟨S4096x4096, .bf16⟩
  | .hbm, ⟨11, _⟩ => ⟨S8192x4096, .f32⟩
  | .hbm, ⟨12, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x4096, .f32⟩
  | .local _ .vmem, ⟨3, _⟩ => ⟨S256x4096, .f32⟩
  | .local _ .vmem, ⟨4, _⟩ => ⟨S256x16, .f32⟩
  | .local _ .vmem, ⟨5, _⟩ => ⟨S256x16, .f32⟩
  | .local _ .vmem, ⟨6, _⟩ => ⟨S16x4096, .f32⟩
  | .local _ .vmem, ⟨7, _⟩ => ⟨S256x4096, .bf16⟩
  | .local _ .vmem, ⟨8, _⟩ => ⟨S256x4096, .bf16⟩
  | .local _ .vmem, ⟨9, _⟩ => ⟨S256x4096, .f32⟩
  | .local _ .vmem, ⟨10, _⟩ => ⟨S256x4096, .f32⟩
  | .local _ .vmem, ⟨11, _⟩ => ⟨S2048x4096, .bf16⟩
  | .local _ .vmem, ⟨12, _⟩ => ⟨S2048, .f32⟩
  | .local _ .vmem, ⟨13, _⟩ => ⟨S2048, .f32⟩
  | .local _ .vmem, ⟨14, _⟩ => ⟨S256x2048, .f32⟩
  | .local _ .vmem, ⟨15, _⟩ => ⟨S256x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  shapeCasts_S4096x128x32_S4096x4096 : S4096x128x32.ShapeCasts S4096x4096
  bcast_S4096x128_S4096x128x32_0_1 : S4096x128.BroadcastsInDim S4096x128x32 (![0, 1] : Fin 2 → Fin S4096x128x32.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x16_S256x16_0_0 : ∀ a, (![0, 0] : Fin 2 → Nat) a + S256x16.size a ≤ S256x16.size a
  h_S256x16 : 0 < S256x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  packedbf16_S256x4096_S256x4096_0_0 : (Rect.unit (s := S256x4096) ![0, 0] S256x4096.size inb_S256x4096_S256x4096_0_0).PackedRows (EltTy.packing .bf16)
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  shapeCasts_S8192x4096_S4x2048x4096 : S8192x4096.ShapeCasts S4x2048x4096
  dot_S256x16_S16x4096_S256x4096_1_0_0_1_n_n_wf : DotDims.WF S256x16 S16x4096 S256x4096 [1] [0] [0] [1] [] []
  dot_S256x4096_S2048x4096_S256x2048_1_1_0_0_n_n_wf : DotDims.WF S256x4096 S2048x4096 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S4096x16.size a
  hwx0_2 : ∀ i : grid0.Coords, EltTy.bits .f32 = 32 ∨ (Rect.block (s := S4096x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S4096x4096.size a
  hwx1_1 : ∀ i : grid1.Coords, EltTy.bits .bf16 = 32 ∨ (Rect.block (s := S4096x4096) S2048x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x4096.size a
  hwx1_3 : ∀ i : grid1.Coords, EltTy.bits .f32 = 32 ∨ (Rect.block (s := S8192x4096) S256x2048.size (cc1_transform_3 i) (hinb1_3 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S_ : Shape := ⟨0, ![]⟩
abbrev S4096x128x1 : Shape := ⟨3, ![4096, 128, 1]⟩
abbrev S4096x4096 : Shape := ⟨2, ![4096, 4096]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x128x32, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S4096, .f32⟩
  | .hbm, ⟨6, _⟩ => ⟨S4096x128x32, .f32⟩
  | .hbm, ⟨7, _⟩ => ⟨S_, .f32⟩
  | .hbm, ⟨8, _⟩ => ⟨S4096x128x32, .f32⟩
  | .hbm, ⟨9, _⟩ => ⟨S4096x128x32, .f32⟩
  | .hbm, ⟨10, _⟩ => ⟨S4096x128x1, .f32⟩
  | .hbm, ⟨11, _⟩ => ⟨S4096x128x32, .f32⟩
  | .hbm, ⟨12, _⟩ => ⟨S4096x128x32, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S4096x128x32 : S_.BroadcastsInDim S4096x128x32 (![] : Fin 0 → Fin S4096x128x32.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRun.lean ====
/-
  The whole program's run with its result named.

  @main is a stretch of host operations (three reshapes and a broadcast), the dequantization kernel, the linear kernel,
  and one closing reshape.  Every weakly fair execution terminates with each unscoped buffer at the contents the fold
  through those four segments gives it; read at the result buffer that is the closing reshape of what the linear
  kernel leaves in its output array, and read at an argument it is the launch contents.
-/
import proofs.«169690_j58849641890140_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched. -/
theorem run_named : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.Spec.lean ====
/-
  The mathematics both programs compute, over the extended reals.

  A block-quantized weight matrix is stored as integer codes `Q o d` with one scale per block of 32 columns, here already
  laid out as a [4096, 4096] array `S o d` of scales (the scale of column `d` is that of its block `d / 32`).  The
  dequantized, patched weight is

      W o d = (real (Q o d) - 128) * S o d + Σ r < 16, LU o r * LD r d,

  and the linear layer applied to the rows of a [8192, 4096] matrix `X` is

      Y m o = (Σ d < 4096, X m d * W o d) + B o.

  Both are stated entry by entry over literal coordinates; nothing here mentions a program.
-/
import Idealize.ShloMosaic.PureOps.Ideal
import Idealize.ShloMosaic.Lib.ValueIdx

noncomputable section

namespace Cert.Spec

open Idealize.ShloMosaic Idealize.ShloMosaic.ValueIdx

/-- The centre of the unsigned code range, 128, as the binary32 word both programs print for it. -/
abbrev zeroPoint : EReal := FloatOps.ofBits (F := Ideal) .f32 0x43000000#32

/-- Entry `(o, d)` of the dequantized and patched weight: the centred code times its scale, plus the rank-16 patch. -/
def weight (Q : (⟨2, ![4096, 4096]⟩ : Shape).Idx → BitVec 32) (S : (⟨2, ![4096, 4096]⟩ : Shape).Idx → EReal)
    (LU : (⟨2, ![4096, 16]⟩ : Shape).Idx → EReal) (LD : (⟨2, ![16, 4096]⟩ : Shape).Idx → EReal) (o d : Fin 4096) : EReal :=
  (FloatOps.sitofp (F := Ideal) .f32 (Q (ix2 o d)) - zeroPoint) * S (ix2 o d) + ∑ r : Fin 16, LU (ix2 o r) * LD (ix2 r d)

/-- The weight as an array: entry `i` is `weight` at `i`'s two coordinates. -/
def weightArr (Q : (⟨2, ![4096, 4096]⟩ : Shape).Idx → BitVec 32) (S : (⟨2, ![4096, 4096]⟩ : Shape).Idx → EReal)
    (LU : (⟨2, ![4096, 16]⟩ : Shape).Idx → EReal) (LD : (⟨2, ![16, 4096]⟩ : Shape).Idx → EReal) :
    (⟨2, ![4096, 4096]⟩ : Shape).Idx → EReal :=
  fun i => weight Q S LU LD ⟨(i 0).val, (i 0).isLt⟩ ⟨(i 1).val, (i 1).isLt⟩

theorem weightArr_ix2 (Q : (⟨2, ![4096, 4096]⟩ : Shape).Idx → BitVec 32) (S : (⟨2, ![4096, 4096]⟩ : Shape).Idx → EReal)
    (LU : (⟨2, ![4096, 16]⟩ : Shape).Idx → EReal) (LD : (⟨2, ![16, 4096]⟩ : Shape).Idx → EReal) (o d : Fin 4096) :
    weightArr Q S LU LD (ix2 o d) = weight Q S LU LD o d := rfl

/-- Entry `(m, o)` of the linear layer: row `m` of `X` against row `o` of the weight, plus the bias of column `o`. -/
def linear (X : (⟨2, ![8192, 4096]⟩ : Shape).Idx → EReal) (W : (⟨2, ![4096, 4096]⟩ : Shape).Idx → EReal)
    (B : (⟨1, ![4096]⟩ : Shape).Idx → EReal) (m : Fin 8192) (o : Fin 4096) : EReal :=
  (∑ d : Fin 4096, X (ix2 m d) * W (ix2 o d)) + B (ix1 o)

/-- The linear layer's result as an array. -/
def linearArr (X : (⟨2, ![8192, 4096]⟩ : Shape).Idx → EReal) (W : (⟨2, ![4096, 4096]⟩ : Shape).Idx → EReal)
    (B : (⟨1, ![4096]⟩ : Shape).Idx → EReal) : (⟨2, ![8192, 4096]⟩ : Shape).Idx → EReal :=
  fun i => linear X W B ⟨(i 0).val, (i 0).isLt⟩ ⟨(i 1).val, (i 1).isLt⟩

theorem linearArr_ix2 (X : (⟨2, ![8192, 4096]⟩ : Shape).Idx → EReal) (W : (⟨2, ![4096, 4096]⟩ : Shape).Idx → EReal)
    (B : (⟨1, ![4096]⟩ : Shape).Idx → EReal) (m : Fin 8192) (o : Fin 4096) :
    linearArr X W B (ix2 m o) = linear X W B m o := rfl

/-- The whole computation on the six argument arrays: the input's two leading axes merged into 8192 rows, the codes'
    and the (block-wise repeated) scales' two trailing axes merged into 4096 columns, the patched weight, the linear
    layer, and the rows split back into [4, 2048]. -/
def value (x : (⟨3, ![4, 2048, 4096]⟩ : Shape).Idx → EReal) (q : (⟨3, ![4096, 128, 32]⟩ : Shape).Idx → BitVec 32)
    (s : (⟨2, ![4096, 128]⟩ : Shape).Idx → EReal) (lu : (⟨2, ![4096, 16]⟩ : Shape).Idx → EReal)
    (ld : (⟨2, ![16, 4096]⟩ : Shape).Idx → EReal) (b : (⟨1, ![4096]⟩ : Shape).Idx → EReal) :
    (⟨3, ![4, 2048, 4096]⟩ : Shape).Idx → EReal :=
  shapeCast ⟨3, ![4, 2048, 4096]⟩
    (linearArr (shapeCast ⟨2, ![8192, 4096]⟩ x (by decide))
      (weightArr (shapeCast ⟨2, ![4096, 4096]⟩ q (by decide))
        (shapeCast ⟨2, ![4096, 4096]⟩ (broadcastInDim ⟨3, ![4096, 128, 32]⟩ ![0, 1] (by decide) s) (by decide)) lu ld) b)
    (by decide)

end Cert.Spec

end
-- ==== Proof.DequantBody.lean ====
/-
  One grid point of the dequantization kernel, entry by entry.

  The body reads a [256, 4096] block of codes, the matching block of scales, 256 rows of the up-projection and the whole
  down-projection, and stores (code - 128) * scale + up · down.  Read at row `p` and column `q` of the block this is the
  centred code times its scale plus the sum over the 16 ranks of up(p, r) * down(r, q): the matrix unit's product into a
  zero accumulator is that sum, and the roundings to bf16 are the identity on the extended reals.
-/
import proofs.«169690_j58849641890140_1_alg».proof.Proof.Gen.KernelIdeal.Skeleton
import proofs.«169690_j58849641890140_1_alg».proof.Proof.Spec
import Idealize.ShloMosaic.Lib.Pipeline.Value
import Idealize.ShloMosaic.Lib.ValueIdx
import Idealize.ShloMosaic.PureOps.Ideal.Laws

noncomputable section

namespace Cert.KernelIdeal.Dequant

open Cert.KernelIdeal Cert.KernelIdeal.Gen Idealize.ShloMosaic Idealize.ShloMosaic.ValueIdx

/-! ## The product's operand indices, coordinate by coordinate -/

theorem lhs_0 (i : S256x4096.Idx) (k : dot_S256x16_S16x4096_S256x4096_1_0_0_1_n_n.contr.Idx) : (dot_S256x16_S16x4096_S256x4096_1_0_0_1_n_n.lhsIdx i k 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lhs_1 (i : S256x4096.Idx) (k : dot_S256x16_S16x4096_S256x4096_1_0_0_1_n_n.contr.Idx) : (dot_S256x16_S16x4096_S256x4096_1_0_0_1_n_n.lhsIdx i k 1).val = (k ⟨0, by decide⟩).val :=
  dot_S256x16_S16x4096_S256x4096_1_0_0_1_n_n.lhsIdx_val_of_single rfl i k
theorem rhs_0 (i : S256x4096.Idx) (k : dot_S256x16_S16x4096_S256x4096_1_0_0_1_n_n.contr.Idx) : (dot_S256x16_S16x4096_S256x4096_1_0_0_1_n_n.rhsIdx i k 0).val = (k ⟨0, by decide⟩).val :=
  dot_S256x16_S16x4096_S256x4096_1_0_0_1_n_n.rhsIdx_val_of_single rfl i k
theorem rhs_1 (i : S256x4096.Idx) (k : dot_S256x16_S16x4096_S256x4096_1_0_0_1_n_n.contr.Idx) : (dot_S256x16_S16x4096_S256x4096_1_0_0_1_n_n.rhsIdx i k 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- The rank-16 product of a [256, 16] block with a [16, 4096] block, accumulated into zero, read at `(p, q)`:
    the sum over the contracted rank `k` of left `(p, k)` times right `(k, q)`. -/
theorem patch_apply (l : FVec Ideal S256x16 .bf16) (r : FVec Ideal S16x4096 .bf16) (p : Fin 256) (q : Fin 4096) :
    FloatOps.matmul dot_S256x16_S16x4096_S256x4096_1_0_0_1_n_n none l r (constant S256x4096 .f32 0x00000000#32) (ix2 p q)
      = ∑ k : Fin 16, l (ix2 p k) * r (ix2 k q) := by
  rw [Ideal.matmul_constant_zero_apply, ← Equiv.sum_comp (ValueIdx.contrEquiv1 dot_S256x16_S16x4096_S256x4096_1_0_0_1_n_n 16 rfl rfl).symm]
  refine Finset.sum_congr rfl fun k _ => ?_
  have hk := ValueIdx.contrEquiv1_symm_val dot_S256x16_S16x4096_S256x4096_1_0_0_1_n_n 16 rfl rfl k
  have el : dot_S256x16_S16x4096_S256x4096_1_0_0_1_n_n.lhsIdx (ix2 p q) ((ValueIdx.contrEquiv1 dot_S256x16_S16x4096_S256x4096_1_0_0_1_n_n 16 rfl rfl).symm k) = ix2 p k := funext fun a => Fin.ext (by
    match a with
    | ⟨0, _⟩ => exact lhs_0 _ _
    | ⟨1, _⟩ => exact (lhs_1 _ _).trans hk)
  have er : dot_S256x16_S16x4096_S256x4096_1_0_0_1_n_n.rhsIdx (ix2 p q) ((ValueIdx.contrEquiv1 dot_S256x16_S16x4096_S256x4096_1_0_0_1_n_n 16 rfl rfl).symm k) = ix2 k q := funext fun a => Fin.ext (by
    match a with
    | ⟨0, _⟩ => exact (rhs_0 _ _).trans hk
    | ⟨1, _⟩ => exact rhs_1 _ _)
  rw [el, er]

/-- What one grid point stores, at row `p` and column `q` of its block. -/
theorem stored_apply (x0 : Vec Ideal S256x4096 .i32) (x1 : Vec Ideal S256x4096 .f32) (x2 : Vec Ideal S256x16 .f32)
    (x3 : Vec Ideal S16x4096 .f32) (p : Fin 256) (q : Fin 4096) :
    k0_pay1 (F := Ideal) x0 x1 x2 x3 (ix2 p q)
      = (FloatOps.sitofp (F := Ideal) .f32 (x0 (ix2 p q)) - Cert.Spec.zeroPoint) * x1 (ix2 p q)
        + ∑ k : Fin 16, x2 (ix2 p k) * x3 (ix2 k q) := by
  have e0 : shapeCast S256x4096 x0 shapeCasts_S256x4096_S256x4096 = x0 := shapeCast_self _ _
  have e1 : shapeCast S256x4096 x1 shapeCasts_S256x4096_S256x4096 = x1 := shapeCast_self _ _
  unfold k0_pay1
  show (FloatOps.sitofp (F := Ideal) .f32 (shapeCast S256x4096 x0 shapeCasts_S256x4096_S256x4096 (ix2 p q)) - Cert.Spec.zeroPoint)
        * shapeCast S256x4096 x1 shapeCasts_S256x4096_S256x4096 (ix2 p q)
      + FloatOps.matmul dot_S256x16_S16x4096_S256x4096_1_0_0_1_n_n none (truncf .bf16 x2 bitsLt_bf16_f32) (truncf .bf16 x3 bitsLt_bf16_f32)
          (constant S256x4096 .f32 0x00000000#32) (ix2 p q) = _
  rw [e0, e1, patch_apply]
  rfl

end Cert.KernelIdeal.Dequant

end
-- ==== Proof.DequantArray.lean ====
/-
  The dequantization kernel's whole output array.

  Grid point `t` of 16 works on rows 256·t … 256·t + 255: its blocks of the codes, the scales and the up-projection
  start at that row, the down-projection is read whole, and the [256, 4096] block it writes back starts at that row too.
  So what point `t` writes back is block `t` of ONE array — the patched weight `Spec.weightArr` of the four arrays as the
  kernel finds them — and, the 16 blocks tiling the 4096 rows, the array ends holding exactly that.
-/
import proofs.«169690_j58849641890140_1_alg».proof.Proof.Gen.KernelIdeal.Frame
import proofs.«169690_j58849641890140_1_alg».proof.Proof.DequantBody

noncomputable section

namespace Cert.KernelIdeal.Dequant

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- What one grid point stores at an entry `j` of its block, the entry's coordinates written out. -/
theorem stored_at (x0 : Vec Ideal S256x4096 .i32) (x1 : Vec Ideal S256x4096 .f32) (x2 : Vec Ideal S256x16 .f32)
    (x3 : Vec Ideal S16x4096 .f32) (j : S256x4096.Idx) :
    k0_pay1 (F := Ideal) x0 x1 x2 x3 j
      = (FloatOps.sitofp (F := Ideal) .f32 (x0 j) - Cert.Spec.zeroPoint) * x1 j
        + ∑ k : Fin 16, x2 (ix2 (⟨(j 0).val, (j 0).isLt⟩ : Fin 256) k) * x3 (ix2 k (⟨(j 1).val, (j 1).isLt⟩ : Fin 4096)) := by
  obtain ⟨p, q, rfl⟩ : ∃ (p : Fin 256) (q : Fin 4096), j = ix2 p q := ⟨j 0, j 1, eq_ix2 j⟩
  exact stored_apply x0 x1 x2 x3 p q

/-- The printed index maps over the 16 grid points: every row-blocked window sits at the output's row block and at
    column block 0, and the down-projection's one block is block (0, 0). -/
theorem index_facts : ∀ t : Fin cfg0.N,
      win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every row block of the output is some grid point's. -/
theorem index_onto : ∀ q0 : Fin 16, ∃ t : Fin cfg0.N, win0_4.index t = ![q0.val, 0] :=
  (by decide +kernel : ∀ q0 : Fin 16, ∃ t : Fin grid0.N, win0_4.index t = ![q0.val, 0])

/-- One entry of the patched weight from four reads: the code and the scale at entry `i`, the up-projection along row
    `i 0` and the down-projection along column `i 1`, however those four places are spelt. -/
theorem entry_of_reads (Q : S4096x4096.Idx → BitVec 32) (S : S4096x4096.Idx → EReal) (LU : S4096x16.Idx → EReal)
    (LD : S16x4096.Idx → EReal) (i0 i1 : S4096x4096.Idx) (i2 : Fin 16 → S4096x16.Idx) (i3 : Fin 16 → S16x4096.Idx)
    (i : S4096x4096.Idx) (h0 : i0 = i) (h1 : i1 = i)
    (h2 : ∀ k, i2 k = ix2 (⟨(i 0).val, (i 0).isLt⟩ : Fin 4096) k)
    (h3 : ∀ k, i3 k = ix2 k (⟨(i 1).val, (i 1).isLt⟩ : Fin 4096)) :
    (FloatOps.sitofp (F := Ideal) .f32 (Q i0) - Cert.Spec.zeroPoint) * S i1 + ∑ k : Fin 16, LU (i2 k) * LD (i3 k)
      = Cert.Spec.weightArr Q S LU LD i := by
  rw [h0, h1]
  simp only [h2, h3]
  have hi : i = ix2 (⟨(i 0).val, (i 0).isLt⟩ : Fin 4096) (⟨(i 1).val, (i 1).isLt⟩ : Fin 4096) := eq_ix2 i
  unfold Cert.Spec.weightArr Cert.Spec.weight
  rw [← hi]

/-- WHAT POINT `t` WRITES BACK is block `t` of the patched weight of the arrays as the kernel finds them. -/
theorem flushed_eq (c : Dev nD) (t : Fin cfg0.N) :
    (dat0 V c).flushed 4 t = ((cfg0.win 4).blk t).view.read (Elt Ideal)
      (Cert.Spec.weightArr (V c main_v1) (V c main_v3) (V c main_arg3) (V c main_arg4)) := by
  show (cfg0.win 4).cut (grid0.coords t) ((dat0 V c).after 4 t) = _
  rw [after0_4]
  unfold out0_4
  rw [View.canon_unit_zero offsets_zero]
  simp only [View.ld_unit_zero (S := S256x4096) offsets_zero, View.ld_unit_zero (S := S256x16) offsets_zero,
    View.ld_unit_zero (S := S16x4096) offsets_zero]
  obtain ⟨e0, e1, e2, e3, e4, e5, e6, e7, e8, e9⟩ := index_facts t
  funext j
  have hj0 : (j 0).val < 256 := (j 0).isLt
  have hj1 : (j 1).val < 4096 := (j 1).isLt
  refine (stored_at (iblk0 V c 0 t) (iblk0 V c 1 t) (iblk0 V c 2 t) (iblk0 V c 3 t) j).trans ?_
  -- the array entry this block entry is: row 256·(row block) + its row, the same column
  obtain ⟨i, hi⟩ : ∃ i : S4096x4096.Idx, i = ((cfg0.win 4).blk t).view.emb j := ⟨_, rfl⟩
  have hi0 : (i 0).val = win0_4.index t (0 : Fin 2) * 256 + 1 * (j 0).val := by rw [hi]; rfl
  have hi1 : (i 1).val = win0_4.index t (1 : Fin 2) * 4096 + 1 * (j 1).val := by rw [hi]; rfl
  have h0 : ((cfg0.win 0).blk t).view.emb j = i := by
    funext a; apply Fin.ext
    match a with
    | ⟨0, _⟩ => show win0_0.index t (0 : Fin 2) * 256 + 1 * (j 0).val = (i 0).val; omega
    | ⟨1, _⟩ => show win0_0.index t (1 : Fin 2) * 4096 + 1 * (j 1).val = (i 1).val; omega
  have h1 : ((cfg0.win 1).blk t).view.emb j = i := by
    funext a; apply Fin.ext
    match a with
    | ⟨0, _⟩ => show win0_1.index t (0 : Fin 2) * 256 + 1 * (j 0).val = (i 0).val; omega
    | ⟨1, _⟩ => show win0_1.index t (1 : Fin 2) * 4096 + 1 * (j 1).val = (i 1).val; omega
  have h2 : ∀ k : Fin 16, ((cfg0.win 2).blk t).view.emb (ix2 (⟨(j 0).val, (j 0).isLt⟩ : Fin 256) k)
      = ix2 (⟨(i 0).val, (i 0).isLt⟩ : Fin 4096) k := by
    intro k
    have hk : k.val < 16 := k.isLt
    funext a; apply Fin.ext
    match a with
    | ⟨0, _⟩ => show win0_2.index t (0 : Fin 2) * 256 + 1 * (j 0).val = (i 0).val; omega
    | ⟨1, _⟩ => show win0_2.index t (1 : Fin 2) * 16 + 1 * k.val = k.val; omega
  have h3 : ∀ k : Fin 16, ((cfg0.win 3).blk t).view.emb (ix2 k (⟨(j 1).val, (j 1).isLt⟩ : Fin 4096))
      = ix2 k (⟨(i 1).val, (i 1).isLt⟩ : Fin 4096) := by
    intro k
    have hk : k.val < 16 := k.isLt
    funext a; apply Fin.ext
    match a with
    | ⟨0, _⟩ => show win0_3.index t (0 : Fin 2) * 16 + 1 * k.val = k.val; omega
    | ⟨1, _⟩ => show win0_3.index t (1 : Fin 2) * 4096 + 1 * (j 1).val = (i 1).val; omega
  show _ = Cert.Spec.weightArr (V c main_v1) (V c main_v3) (V c main_arg3) (V c main_arg4) (((cfg0.win 4).blk t).view.emb j)
  rw [← hi]
  exact entry_of_reads (V c main_v1) (V c main_v3) (V c main_arg3) (V c main_arg4)
    (((cfg0.win 0).blk t).view.emb j) (((cfg0.win 1).blk t).view.emb j)
    (fun k => ((cfg0.win 2).blk t).view.emb (ix2 (⟨(j 0).val, (j 0).isLt⟩ : Fin 256) k))
    (fun k => ((cfg0.win 3).blk t).view.emb (ix2 k (⟨(j 1).val, (j 1).isLt⟩ : Fin 4096)))
    i h0 h1 h2 h3

/-- An entry of the array is in point `t`'s block iff each coordinate is in the block's range on its axis. -/
theorem mem_blk (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v4).slice (win0_4.rect t)).set ↔ _
  rw [View.set_slice_whole, Rect.mem_set_unit]
  exact Iff.rfl

/-- The 16 row blocks tile the array: row `r` is in the block of point `r / 256`. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := index_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- THE ARRAY after the kernel: the patched weight of the codes, scales and projections as the kernel finds them. -/
theorem final (c : Dev nD) :
    (dat0 V c).arrAt 4 cfg0.N = Cert.Spec.weightArr (V c main_v1) (V c main_v3) (V c main_arg3) (V c main_arg4) :=
  (dat0 V c).arrAt_eq_of_cover 4 _ (fun t _ => flushed_eq V c t) covered

end Cert.KernelIdeal.Dequant

end
-- ==== Proof.LinearBody.lean ====
/-
  One grid point of the linear kernel, entry by entry.

  The body reads 256 rows of the input, 2048 rows of the weight and the matching 2048 biases, and stores
  input · weightᵀ + bias.  Read at row `p` and column `o` of the [256, 2048] block this is the sum over the 4096
  shared columns `d` of input(p, d) * weight(o, d), plus bias(o): the matrix unit's product into a zero accumulator is
  that sum, the rounding of the input to bf16 is the identity on the extended reals, and the bias row laid under every
  row of the block reads its entry `o`.
-/
import proofs.«169690_j58849641890140_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Linear

open Cert.KernelIdeal Cert.KernelIdeal.Gen Idealize.ShloMosaic Idealize.ShloMosaic.ValueIdx

/-! ## The product's operand indices, coordinate by coordinate -/

theorem lhs_0 (i : S256x2048.Idx) (k : dot_S256x4096_S2048x4096_S256x2048_1_1_0_0_n_n.contr.Idx) : (dot_S256x4096_S2048x4096_S256x2048_1_1_0_0_n_n.lhsIdx i k 0).val = (i 0).val := by
  unfold DotDims.lhsIdx
  rw [dif_neg (show ¬(0 : Fin S256x4096.rank) ∈ dot_S256x4096_S2048x4096_S256x2048_1_1_0_0_n_n.lhsBatch by decide), dif_pos (show (0 : Fin S256x4096.rank) ∈ dot_S256x4096_S2048x4096_S256x2048_1_1_0_0_n_n.lhsNonContracting by decide)]
  rfl
theorem lhs_1 (i : S256x2048.Idx) (k : dot_S256x4096_S2048x4096_S256x2048_1_1_0_0_n_n.contr.Idx) : (dot_S256x4096_S2048x4096_S256x2048_1_1_0_0_n_n.lhsIdx i k 1).val = (k ⟨0, by decide⟩).val :=
  dot_S256x4096_S2048x4096_S256x2048_1_1_0_0_n_n.lhsIdx_val_of_single rfl i k
theorem rhs_0 (i : S256x2048.Idx) (k : dot_S256x4096_S2048x4096_S256x2048_1_1_0_0_n_n.contr.Idx) : (dot_S256x4096_S2048x4096_S256x2048_1_1_0_0_n_n.rhsIdx i k 0).val = (i 1).val := by
  unfold DotDims.rhsIdx
  rw [dif_neg (show ¬(0 : Fin S2048x4096.rank) ∈ dot_S256x4096_S2048x4096_S256x2048_1_1_0_0_n_n.rhsBatch by decide), dif_pos (show (0 : Fin S2048x4096.rank) ∈ dot_S256x4096_S2048x4096_S256x2048_1_1_0_0_n_n.rhsNonContracting by decide)]
  rfl
theorem rhs_1 (i : S256x2048.Idx) (k : dot_S256x4096_S2048x4096_S256x2048_1_1_0_0_n_n.contr.Idx) : (dot_S256x4096_S2048x4096_S256x2048_1_1_0_0_n_n.rhsIdx i k 1).val = (k ⟨0, by decide⟩).val :=
  dot_S256x4096_S2048x4096_S256x2048_1_1_0_0_n_n.rhsIdx_val_of_single rfl i k

/-- A [256, 4096] block against a [2048, 4096] block along their shared columns, accumulated into zero, read at
    `(p, o)`: the sum over the shared column `d` of left `(p, d)` times right `(o, d)`. -/
theorem product_apply (l : FVec Ideal S256x4096 .bf16) (r : FVec Ideal S2048x4096 .bf16) (p : Fin 256) (o : Fin 2048) :
    FloatOps.matmul dot_S256x4096_S2048x4096_S256x2048_1_1_0_0_n_n none l r (constant S256x2048 .f32 0x00000000#32) (ix2 p o)
      = ∑ d : Fin 4096, l (ix2 p d) * r (ix2 o d) := by
  rw [Ideal.matmul_constant_zero_apply, ← Equiv.sum_comp (ValueIdx.contrEquiv1 dot_S256x4096_S2048x4096_S256x2048_1_1_0_0_n_n 4096 rfl rfl).symm]
  refine Finset.sum_congr rfl fun d _ => ?_
  have hd := ValueIdx.contrEquiv1_symm_val dot_S256x4096_S2048x4096_S256x2048_1_1_0_0_n_n 4096 rfl rfl d
  have el : dot_S256x4096_S2048x4096_S256x2048_1_1_0_0_n_n.lhsIdx (ix2 p o) ((ValueIdx.contrEquiv1 dot_S256x4096_S2048x4096_S256x2048_1_1_0_0_n_n 4096 rfl rfl).symm d) = ix2 p d := funext fun a => Fin.ext (by
    match a with
    | ⟨0, _⟩ => exact lhs_0 _ _
    | ⟨1, _⟩ => exact (lhs_1 _ _).trans hd)
  have er : dot_S256x4096_S2048x4096_S256x2048_1_1_0_0_n_n.rhsIdx (ix2 p o) ((ValueIdx.contrEquiv1 dot_S256x4096_S2048x4096_S256x2048_1_1_0_0_n_n 4096 rfl rfl).symm d) = ix2 o d := funext fun a => Fin.ext (by
    match a with
    | ⟨0, _⟩ => exact rhs_0 _ _
    | ⟨1, _⟩ => exact (rhs_1 _ _).trans hd)
  rw [el, er]

/-- The bias vector cast to one row and laid under every row of the block reads, at `(p, o)`, its entry `o`. -/
theorem bias_apply (b : FVec Ideal S2048 .f32) (p : Fin 256) (o : Fin 2048) :
    broadcastTo S256x2048 (shapeCast S1x2048 b shapeCasts_S2048_S1x2048) broadcasts_S1x2048_S256x2048 (ix2 p o) = b (ix1 o) :=
  (broadcastTo_1b_ab_apply (shapeCast S1x2048 b shapeCasts_S2048_S1x2048) broadcasts_S1x2048_S256x2048 p o).trans
    (shapeCast_a_1a_apply b shapeCasts_S2048_S1x2048 0 o)

/-- What one grid point stores, at row `p` and column `o` of its block. -/
theorem stored_apply (x0 : Vec Ideal S256x4096 .f32) (x1 : Vec Ideal S2048x4096 .bf16) (x2 : Vec Ideal S2048 .f32)
    (p : Fin 256) (o : Fin 2048) :
    k1_pay1 (F := Ideal) x0 x1 x2 (ix2 p o) = (∑ d : Fin 4096, x0 (ix2 p d) * x1 (ix2 o d)) + x2 (ix1 o) := by
  have e0 : shapeCast S256x4096 x0 shapeCasts_S256x4096_S256x4096 = x0 := shapeCast_self _ _
  have e1 : shapeCast S2048x4096 x1 shapeCasts_S2048x4096_S2048x4096 = x1 := shapeCast_self _ _
  unfold k1_pay1
  show FloatOps.matmul (F := Ideal) dot_S256x4096_S2048x4096_S256x2048_1_1_0_0_n_n none (truncf .bf16 (shapeCast S256x4096 x0 shapeCasts_S256x4096_S256x4096) bitsLt_bf16_f32)
          (shapeCast S2048x4096 x1 shapeCasts_S2048x4096_S2048x4096) (constant S256x2048 .f32 0x00000000#32) (ix2 p o)
      + broadcastTo S256x2048 (shapeCast S1x2048 x2 shapeCasts_S2048_S1x2048) broadcasts_S1x2048_S256x2048 (ix2 p o) = _
  rw [e0, e1, product_apply, bias_apply]
  rfl

end Cert.KernelIdeal.Linear

end
-- ==== Proof.LinearArray.lean ====
/-
  The linear kernel's whole output array.

  The grid is 2 × 32: the outer coordinate picks 2048 of the weight's rows (and their biases), the inner one 256 of the
  input's rows.  The point with coordinates (a, b) reads input rows 256·b …, weight rows 2048·a … and biases 2048·a …,
  all 4096 shared columns of both, and writes back the [256, 2048] block at row block `b`, column block `a` of the
  output.  So what a point writes back is its block of ONE array — `Spec.linearArr` of the input, the weight and the bias
  as the kernel finds them — and, the 64 blocks tiling the [8192, 4096] output, the array ends holding exactly that.
-/
import proofs.«169690_j58849641890140_1_alg».proof.Proof.Gen.KernelIdeal.Frame
import proofs.«169690_j58849641890140_1_alg».proof.Proof.LinearBody
import proofs.«169690_j58849641890140_1_alg».proof.Proof.Spec

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero2 : (![0, 0] : Fin 2 → Nat) = fun _ => 0 := funext fun a => by fin_cases a <;> rfl
theorem offsets_zero1 : (![0] : Fin 1 → Nat) = fun _ => 0 := funext fun a => by fin_cases a; rfl

/-- What one grid point stores at an entry `j` of its block, the entry's coordinates written out. -/
theorem stored_at (x0 : Vec Ideal S256x4096 .f32) (x1 : Vec Ideal S2048x4096 .bf16) (x2 : Vec Ideal S2048 .f32)
    (j : S256x2048.Idx) :
    k1_pay1 (F := Ideal) x0 x1 x2 j
      = (∑ d : Fin 4096, x0 (ix2 (⟨(j 0).val, (j 0).isLt⟩ : Fin 256) d) * x1 (ix2 (⟨(j 1).val, (j 1).isLt⟩ : Fin 2048) d))
        + x2 (ix1 (⟨(j 1).val, (j 1).isLt⟩ : Fin 2048)) := by
  obtain ⟨p, o, rfl⟩ : ∃ (p : Fin 256) (o : Fin 2048), j = ix2 p o := ⟨j 0, j 1, eq_ix2 j⟩
  exact stored_apply x0 x1 x2 p o

/-- The printed index maps over the 64 grid points: the input sits at the output's row block, the weight and the bias
    at the output's column block, and every column block of the shared axis is block 0. -/
theorem index_facts : ∀ t : Fin cfg1.N,
      win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 1) = win1_3.index t (1 : Fin 2)
    ∧ win1_3.index t (0 : Fin 2) ≤ 31 ∧ win1_3.index t (1 : Fin 2) ≤ 1 :=
  (by decide +kernel : ∀ t : Fin grid1.N, _)

/-- Every block of the output is some grid point's. -/
theorem index_onto : ∀ (q0 : Fin 32) (q1 : Fin 2), ∃ t : Fin cfg1.N, win1_3.index t = ![q0.val, q1.val] :=
  (by decide +kernel : ∀ (q0 : Fin 32) (q1 : Fin 2), ∃ t : Fin grid1.N, win1_3.index t = ![q0.val, q1.val])

/-- One entry of the linear layer from its reads: the input along row `i 0`, the weight along row `i 1` and the bias
    at `i 1`, however those places are spelt. -/
theorem entry_of_reads (X : S8192x4096.Idx → EReal) (W : S4096x4096.Idx → EReal) (B : S4096.Idx → EReal)
    (i0 : Fin 4096 → S8192x4096.Idx) (i1 : Fin 4096 → S4096x4096.Idx) (i2 : S4096.Idx) (i : S8192x4096.Idx)
    (h0 : ∀ d, i0 d = ix2 (⟨(i 0).val, (i 0).isLt⟩ : Fin 8192) d)
    (h1 : ∀ d, i1 d = ix2 (⟨(i 1).val, (i 1).isLt⟩ : Fin 4096) d)
    (h2 : i2 = ix1 (⟨(i 1).val, (i 1).isLt⟩ : Fin 4096)) :
    (∑ d : Fin 4096, X (i0 d) * W (i1 d)) + B i2 = Cert.Spec.linearArr X W B i := by
  subst h2
  simp only [h0, h1]
  rfl

/-- WHAT POINT `t` WRITES BACK is its block of the linear layer of the arrays as the kernel finds them. -/
theorem flushed_eq (c : Dev nD) (t : Fin cfg1.N) :
    (dat1 V c).flushed 3 t = ((cfg1.win 3).blk t).view.read (Elt Ideal)
      (Cert.Spec.linearArr (V c main_v0) (V c main_v4) (V c main_arg5)) := by
  show (cfg1.win 3).cut (grid1.coords t) ((dat1 V c).after 3 t) = _
  rw [after1_3]
  unfold out1_3
  rw [View.canon_unit_zero offsets_zero2]
  simp only [View.ld_unit_zero (S := S256x4096) offsets_zero2, View.ld_unit_zero (S := S2048x4096) offsets_zero2,
    View.ld_unit_zero (S := S2048) offsets_zero1]
  obtain ⟨e0, e1, e2, e3, e4, e5, e6⟩ := index_facts t
  funext j
  have hj0 : (j 0).val < 256 := (j 0).isLt
  have hj1 : (j 1).val < 2048 := (j 1).isLt
  refine (stored_at (iblk1 V c 0 t) (iblk1 V c 1 t) (iblk1 V c 2 t) j).trans ?_
  -- the array entry this block entry is: row 256·(row block) + its row, column 2048·(column block) + its column
  obtain ⟨i, hi⟩ : ∃ i : S8192x4096.Idx, i = ((cfg1.win 3).blk t).view.emb j := ⟨_, rfl⟩
  have hi0 : (i 0).val = win1_3.index t (0 : Fin 2) * 256 + 1 * (j 0).val := by rw [hi]; rfl
  have hi1 : (i 1).val = win1_3.index t (1 : Fin 2) * 2048 + 1 * (j 1).val := by rw [hi]; rfl
  have h0 : ∀ d : Fin 4096, ((cfg1.win 0).blk t).view.emb (ix2 (⟨(j 0).val, (j 0).isLt⟩ : Fin 256) d)
      = ix2 (⟨(i 0).val, (i 0).isLt⟩ : Fin 8192) d := by
    intro d
    have hd : d.val < 4096 := d.isLt
    funext a; apply Fin.ext
    match a with
    | ⟨0, _⟩ => show win1_0.index t (0 : Fin 2) * 256 + 1 * (j 0).val = (i 0).val; omega
    | ⟨1, _⟩ => show win1_0.index t (1 : Fin 2) * 4096 + 1 * d.val = d.val; omega
  have h1 : ∀ d : Fin 4096, ((cfg1.win 1).blk t).view.emb (ix2 (⟨(j 1).val, (j 1).isLt⟩ : Fin 2048) d)
      = ix2 (⟨(i 1).val, (i 1).isLt⟩ : Fin 4096) d := by
    intro d
    have hd : d.val < 4096 := d.isLt
    funext a; apply Fin.ext
    match a with
    | ⟨0, _⟩ => show win1_1.index t (0 : Fin 2) * 2048 + 1 * (j 1).val = (i 1).val; omega
    | ⟨1, _⟩ => show win1_1.index t (1 : Fin 2) * 4096 + 1 * d.val = d.val; omega
  have h2 : ((cfg1.win 2).blk t).view.emb (ix1 (⟨(j 1).val, (j 1).isLt⟩ : Fin 2048))
      = ix1 (⟨(i 1).val, (i 1).isLt⟩ : Fin 4096) := by
    funext a; apply Fin.ext
    match a with
    | ⟨0, _⟩ => show win1_2.index t (0 : Fin 1) * 2048 + 1 * (j 1).val = (i 1).val; omega
  show _ = Cert.Spec.linearArr (V c main_v0) (V c main_v4) (V c main_arg5) (((cfg1.win 3).blk t).view.emb j)
  rw [← hi]
  exact entry_of_reads (V c main_v0) (V c main_v4) (V c main_arg5)
    (fun d => ((cfg1.win 0).blk t).view.emb (ix2 (⟨(j 0).val, (j 0).isLt⟩ : Fin 256) d))
    (fun d => ((cfg1.win 1).blk t).view.emb (ix2 (⟨(j 1).val, (j 1).isLt⟩ : Fin 2048) d))
    (((cfg1.win 2).blk t).view.emb (ix1 (⟨(j 1).val, (j 1).isLt⟩ : Fin 2048)))
    i h0 h1 h2

/-- An entry of the array is in point `t`'s block iff each coordinate is in the block's range on its axis. -/
theorem mem_blk (t : Fin cfg1.N) (i : S8192x4096.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v5).slice (win1_3.rect t)).set ↔ _
  rw [View.set_slice_whole, Rect.mem_set_unit]
  exact Iff.rfl

/-- The 64 blocks tile the array: entry `(r, o)` is in the block of the point at row block `r / 256`, column block
    `o / 2048`. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := index_onto ⟨(i 0).val / 256, by omega⟩ ⟨(i 1).val / 2048, by omega⟩
  have q0 : win1_3.index t (0 : Fin 2) = (i 0).val / 256 := congrFun ht 0
  have q1 : win1_3.index t (1 : Fin 2) = (i 1).val / 2048 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- THE ARRAY after the kernel: the linear layer of the input, the weight and the bias as the kernel finds them. -/
theorem final (c : Dev nD) :
    (dat1 V c).arrAt 3 cfg1.N = Cert.Spec.linearArr (V c main_v0) (V c main_v4) (V c main_arg5) :=
  (dat1 V c).arrAt_eq_of_cover 3 _ (fun t _ => flushed_eq V c t) covered

end Cert.KernelIdeal.Linear

end
-- ==== Proof.KernelValue.lean ====
/-
  The result buffer of the kernel's program as one function of the six argument arrays.

  Reading the fold through @main backwards from the result: the closing reshape splits the rows of the linear kernel's
  output array; that array is the linear layer (LinearArray) of the merged input, of what the dequantization kernel left
  in its output array, and of the bias; and that array in turn is the patched weight (DequantArray) of the merged codes,
  the merged block-wise repeated scales and the two projections.  The host stretch before the kernels writes the merged
  arrays and nothing else, and neither kernel writes an array the other one or the host reads except its own output.
-/
import proofs.«169690_j58849641890140_1_alg».proof.Proof.KernelRun
import proofs.«169690_j58849641890140_1_alg».proof.Proof.DequantArray
import proofs.«169690_j58849641890140_1_alg».proof.Proof.LinearArray

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The host stretch before the kernels -/

/-- The input with its two leading axes merged. -/
theorem entry_v0 (c : Dev nD) : V1 m ρ c main_v0
    = shapeCast S8192x4096 (m ((c : Thread nD τ).loc main_arg0)) shapeCasts_S4x2048x4096_S8192x4096 := by
  show StableHlo.after hostOps0 (W0 m ρ c) (Proc.devRef .tc main_v0) = _
  dsimp only [hostOps0]
  after_results
  rfl

/-- The codes with their two trailing axes merged. -/
theorem entry_v1 (c : Dev nD) : V1 m ρ c main_v1
    = shapeCast S4096x4096 (m ((c : Thread nD τ).loc main_arg1)) shapeCasts_S4096x128x32_S4096x4096 := by
  show StableHlo.after hostOps0 (W0 m ρ c) (Proc.devRef .tc main_v1) = _
  dsimp only [hostOps0]
  after_results
  rfl

/-- The scales repeated along each block of 32 columns, the two trailing axes merged. -/
theorem entry_v3 (c : Dev nD) : V1 m ρ c main_v3
    = shapeCast S4096x4096 (broadcastInDim S4096x128x32 ![0, 1] bcast_S4096x128_S4096x128x32_0_1 (m ((c : Thread nD τ).loc main_arg2)))
        shapeCasts_S4096x128x32_S4096x4096 := by
  show StableHlo.after hostOps0 (W0 m ρ c) (Proc.devRef .tc main_v3) = _
  dsimp only [hostOps0]
  after_results
  rfl

/-- The host stretch writes no argument. -/
theorem entry_arg3 (c : Dev nD) : V1 m ρ c main_arg3 = m ((c : Thread nD τ).loc main_arg3) := by
  show StableHlo.after hostOps0 (W0 m ρ c) (Proc.devRef .tc main_arg3) = _
  dsimp only [hostOps0]
  after_results
theorem entry_arg4 (c : Dev nD) : V1 m ρ c main_arg4 = m ((c : Thread nD τ).loc main_arg4) := by
  show StableHlo.after hostOps0 (W0 m ρ c) (Proc.devRef .tc main_arg4) = _
  dsimp only [hostOps0]
  after_results
theorem entry_arg5 (c : Dev nD) : V1 m ρ c main_arg5 = m ((c : Thread nD τ).loc main_arg5) := by
  show StableHlo.after hostOps0 (W0 m ρ c) (Proc.devRef .tc main_arg5) = _
  dsimp only [hostOps0]
  after_results

/-! ## Between the two kernels -/

/-- The dequantization kernel leaves the merged input as the host wrote it. -/
theorem mid_v0 (c : Dev nD) : V2 m ρ c main_v0
    = shapeCast S8192x4096 (m ((c : Thread nD τ).loc main_arg0)) shapeCasts_S4x2048x4096_S8192x4096 :=
  (W2_of_ne m ρ c main_v0 (by decide)).trans (entry_v0 m ρ c)

/-- and the bias as launched; -/
theorem mid_arg5 (c : Dev nD) : V2 m ρ c main_arg5 = m ((c : Thread nD τ).loc main_arg5) :=
  (W2_of_ne m ρ c main_arg5 (by decide)).trans (entry_arg5 m ρ c)

/-- its own output array holds the patched weight of the merged codes and scales and the two projections. -/
theorem mid_v4 (c : Dev nD) : V2 m ρ c main_v4
    = Cert.Spec.weightArr (shapeCast S4096x4096 (m ((c : Thread nD τ).loc main_arg1)) shapeCasts_S4096x128x32_S4096x4096)
        (shapeCast S4096x4096 (broadcastInDim S4096x128x32 ![0, 1] bcast_S4096x128_S4096x128x32_0_1 (m ((c : Thread nD τ).loc main_arg2)))
          shapeCasts_S4096x128x32_S4096x4096)
        (m ((c : Thread nD τ).loc main_arg3)) (m ((c : Thread nD τ).loc main_arg4)) := by
  refine (W2_arr m ρ c 4).trans ?_
  rw [Cert.KernelIdeal.Dequant.final (V1 m ρ) c, entry_v1, entry_v3, entry_arg3, entry_arg4]

/-! ## The result -/

/-- The result buffer after @main is `Spec.value` of the six argument arrays. -/
theorem result_eq (c : Dev nD) : W4 m ρ c (Proc.devRef .tc main_v6)
    = Cert.Spec.value (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  have e : W4 m ρ c (Proc.devRef .tc main_v6)
      = shapeCast S4x2048x4096 (W3 m ρ c (Proc.devRef .tc main_v5)) shapeCasts_S8192x4096_S4x2048x4096 := by
    show StableHlo.after hostOps2 (W3 m ρ c) (Proc.devRef .tc main_v6) = _
    dsimp only [hostOps2]
    after_results
    rfl
  have e5 : W3 m ρ c (Proc.devRef .tc main_v5)
      = Cert.Spec.linearArr (V2 m ρ c main_v0) (V2 m ρ c main_v4) (V2 m ρ c main_arg5) :=
    (W3_arr m ρ c 3).trans (Cert.KernelIdeal.Linear.final (V2 m ρ) c)
  rw [e, e5, mid_v0, mid_v4, mid_arg5]
  rfl

/-- Every weakly fair execution of @main terminates with the result at `Spec.value` of the arguments as launched, and
    the arguments unchanged. -/
theorem run : θ_run defs (onTc (τ := τ) (main (F := Ideal))) ⟨m, fun _ => 0, ρ⟩ (fun r => ∀ c : Dev nD,
      r.2.mem ((c.tc : Thread nD τ).loc main_v6)
        = Cert.Spec.value (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Whole

end
-- ==== Proof.Bridge.lean ====
/-
  The reference computes the same function of the six argument arrays.

  The reference dequantizes in the [4096, 128, 32] layout — (real code - 128) times the block's scale — merges the two
  trailing axes, adds the rank-16 product of the projections, contracts the input's last axis with the weight's last axis
  and adds the bias along the last axis.  Entry (a, t, o) of its result is therefore

      Σ d < 4096, x(a, t, d) * ((real q(o, d / 32, d % 32) - 128) * s(o, d / 32) + Σ r < 16, lu(o, r) * ld(r, d)) + b(o),

  which is entry (2048·a + t, o) of `Spec.linearArr` on the merged arrays: merged entry (o, d) of a [4096, 128, 32] array is
  its entry (o, d / 32, d % 32), and merged row 2048·a + t of the input is its row (a, t).  No algebra joins the two
  sides: the sums run over the same index sets in the same order and the summands are the same terms.
-/
import proofs.«169690_j58849641890140_1_alg».proof.Proof.Gen.ReferenceIdeal.Read
import proofs.«169690_j58849641890140_1_alg».proof.Proof.Spec
import Idealize.ShloMosaic.Lib.Pipeline.Value
import Idealize.ShloMosaic.Lib.ValueIdx

noncomputable section

namespace Cert.ReferenceIdeal.Bridge

open Cert.ReferenceIdeal Cert.ReferenceIdeal.Gen Cert.ReferenceIdeal.Read
open Idealize.ShloMosaic Idealize.ShloMosaic.ValueIdx

/-- Entry `(o, d)` of a [4096, 128, 32] array with its trailing axes merged is its entry `(o, d / 32, d % 32)`. -/
theorem merged_apply {α : Type} (y : S4096x128x32.Idx → α) (h : S4096x128x32.ShapeCasts S4096x4096) (j : S4096x4096.Idx) :
    shapeCast S4096x4096 y h j = y (idx_main_v6 j) :=
  shapeCast_apply y h j (idx_main_v6 j) (by
    rewrite [Shape.rowMajor_val_three, Shape.rowMajor_val_two]
    have h0 : (j 0).val < 4096 := (j 0).isLt
    have h1 : (j 1).val < 4096 := (j 1).isLt
    show (((j 0).val * 4096 + (j 1).val) / 4096 * 128 + ((j 0).val * 4096 + (j 1).val) / 32 % 128) * 32
        + ((j 0).val * 4096 + (j 1).val) % 32 = (j 0).val * 4096 + (j 1).val
    omega)

/-- The scales repeated along a new trailing axis of 32 read, at `(o, n, k)`, the scale `(o, n)`. -/
theorem repeated_apply (s : S4096x128.Idx → EReal) (hb : S4096x128.BroadcastsInDim S4096x128x32 (![0, 1] : Fin 2 → Fin S4096x128x32.rank))
    (jj : S4096x128x32.Idx) :
    broadcastInDim S4096x128x32 ![0, 1] hb s jj = s (idx_main_v3 (idx_main_v4 jj)) :=
  broadcastInDim_apply _ hb s jj (idx_main_v3 (idx_main_v4 jj)) (fun a => match a with
    | ⟨0, _⟩ => by show (jj 0).val = if (4096 : Nat) = 1 then 0 else (jj 0).val; rw [if_neg (by decide)]
    | ⟨1, _⟩ => by show (jj 1).val = if (128 : Nat) = 1 then 0 else (jj 1).val; rw [if_neg (by decide)])

/-- The patched weight of the merged codes and scales is the reference's weight, entry by entry. -/
theorem weight_eq (q : S4096x128x32.Idx → BitVec 32) (s : S4096x128.Idx → EReal) (lu : S4096x16.Idx → EReal)
    (ld : S16x4096.Idx → EReal) (h1 h2 : S4096x128x32.ShapeCasts S4096x4096)
    (hb : S4096x128.BroadcastsInDim S4096x128x32 (![0, 1] : Fin 2 → Fin S4096x128x32.rank)) (o d : Fin 4096) :
    Cert.Spec.weightArr (shapeCast S4096x4096 q h1) (shapeCast S4096x4096 (broadcastInDim S4096x128x32 ![0, 1] hb s) h2) lu ld (ix2 o d)
      = val_main_v8 (F := Ideal) q s lu ld (ix2 o d) := by
  rw [Cert.Spec.weightArr_ix2]
  unfold Cert.Spec.weight
  rw [merged_apply, merged_apply, repeated_apply]
  rw [val_main_v8_apply, val_main_v6_apply, val_main_v5_apply, val_main_v2_apply, val_main_v0_apply, val_main_v1_apply,
    val_main_v4_apply, val_main_v3_apply, val_main_v7_apply]
  have hl : ∀ k : Fin 16, lidx_main_v7 (ix2 o d) k = ix2 o k := fun k => funext fun a => by
    match a with
    | ⟨0, _⟩ => rfl
    | ⟨1, _⟩ => rfl
  have hr : ∀ k : Fin 16, ridx_main_v7 (ix2 o d) k = ix2 k d := fun k => funext fun a => by
    match a with
    | ⟨0, _⟩ => rfl
    | ⟨1, _⟩ => rfl
  simp only [hl, hr]
  rfl

/-- `Spec.value` is the reference's result, as functions of the six argument arrays. -/
theorem value_eq (x : S4x2048x4096.Idx → EReal) (q : S4096x128x32.Idx → BitVec 32) (s : S4096x128.Idx → EReal)
    (lu : S4096x16.Idx → EReal) (ld : S16x4096.Idx → EReal) (b : S4096.Idx → EReal) :
    Cert.Spec.value x q s lu ld b = val_main_v12 (F := Ideal) x q s lu ld b := by
  funext i
  obtain ⟨a, t, o, rfl⟩ : ∃ (a : Fin 4) (t : Fin 2048) (o : Fin 4096), i = ix3 a t o := ⟨i 0, i 1, i 2, eq_ix3 i⟩
  have ha : a.val < 4 := a.isLt
  have ht : t.val < 2048 := t.isLt
  have hrow : a.val * 2048 + t.val < 8192 := by omega
  unfold Cert.Spec.value
  rw [shapeCast_apply _ _ (ix3 a t o) (ix2 (⟨a.val * 2048 + t.val, hrow⟩ : Fin 8192) o) (by
      rw [Shape.rowMajor_val_two, Shape.rowMajor_val_three]
      show (a.val * 2048 + t.val) * 4096 + o.val = (a.val * 2048 + t.val) * 4096 + o.val
      rfl), Cert.Spec.linearArr_ix2]
  unfold Cert.Spec.linear
  rw [val_main_v12_apply, val_main_v9_apply, val_main_v11_apply, val_main_v10_apply]
  have hb : idx_main_v10 (idx_main_v11 (ix3 a t o)) = ix1 o := funext fun z => by
    match z with
    | ⟨0, _⟩ => rfl
  have hw : ∀ d : Fin 4096, ridx_main_v9 (ix3 a t o) d = ix2 o d := fun d => funext fun z => by
    match z with
    | ⟨0, _⟩ => rfl
    | ⟨1, _⟩ => rfl
  have hx : ∀ (h : S4x2048x4096.ShapeCasts ⟨2, ![8192, 4096]⟩) (d : Fin 4096),
      shapeCast ⟨2, ![8192, 4096]⟩ x h (ix2 (⟨a.val * 2048 + t.val, hrow⟩ : Fin 8192) d) = x (lidx_main_v9 (ix3 a t o) d) :=
    fun h d => shapeCast_apply x h _ _ (by
      rw [Shape.rowMajor_val_three, Shape.rowMajor_val_two]
      show (a.val * 2048 + t.val) * 4096 + d.val = (a.val * 2048 + t.val) * 4096 + d.val
      rfl)
  simp only [hx, hw, hb]
  show _ = (∑ d : Fin 4096, x (lidx_main_v9 (ix3 a t o) d) * val_main_v8 (F := Ideal) q s lu ld (ix2 o d)) + b (ix1 o)
  refine congrArg (fun z : EReal => z + b (ix1 o)) (Finset.sum_congr rfl fun d _ => ?_)
  exact congrArg (fun z : EReal => x (lidx_main_v9 (ix3 a t o) d) * z) (weight_eq q s lu ld _ _ _ o d)

end Cert.ReferenceIdeal.Bridge

end
-- ==== Proof.lean ====
/-
  A block-quantized linear layer with a low-rank patch: the kernel's program against its reference, on the extended reals.

  Both programs compute, for an input x[4, 2048, 4096], integer codes q[4096, 128, 32] with one scale s[4096, 128] per block
  of 32 columns, projections lu[4096, 16] and ld[16, 4096] and a bias b[4096],

      y(a, t, o) = Σ d < 4096, x(a, t, d) * W(o, d) + b(o),
      W(o, d)    = (real q(o, d / 32, d % 32) - 128) * s(o, d / 32) + Σ r < 16, lu(o, r) * ld(r, d).

  The kernel's program merges axes on the host, builds W in one kernel of 16 row blocks (DequantBody, DequantArray), applies
  it in a second kernel on a 2 × 32 grid of output blocks (LinearBody, LinearArray) and splits the rows again (KernelRun,
  KernelValue); its result buffer ends at `Spec.value` of the arguments.  The reference's result is the same function
  (Bridge): the sums run over the same index sets with the same summands, so no law of arithmetic — and no finiteness of
  the inputs — is used.  The roundings to bf16 on the way into the matrix unit are the identity on the extended reals,
  and the idealization rewrote nothing, so there is nothing to preserve.
-/
import proofs.«169690_j58849641890140_1_alg».proof.Defs
import proofs.«169690_j58849641890140_1_alg».proof.Proof.Gen.Kernel
import proofs.«169690_j58849641890140_1_alg».proof.Proof.Gen.Kernel.Frame
import proofs.«169690_j58849641890140_1_alg».proof.Proof.Gen.KernelIdeal
import proofs.«169690_j58849641890140_1_alg».proof.Proof.Gen.KernelIdeal.Frame
import proofs.«169690_j58849641890140_1_alg».proof.Proof.Gen.ReferenceIdeal
import proofs.«169690_j58849641890140_1_alg».proof.Proof.Gen.ReferenceIdeal.Run
import proofs.«169690_j58849641890140_1_alg».proof.Proof.Gen.ReferenceIdeal.Read
import proofs.«169690_j58849641890140_1_alg».proof.Proof.Gen.Pre_finite_inputs
import proofs.«169690_j58849641890140_1_alg».proof.Proof.KernelValue
import proofs.«169690_j58849641890140_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program, word for word, runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result at `Spec.value` of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5, Cert.ReferenceIdeal.Read.val_main_v12_eq]
  exact (Cert.ReferenceIdeal.Bridge.value_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
